-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x256x64x64 .f32) (main_arg1 : FVec F S32x256 .f32) (main_arg2 : FVec F S32 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x256x64x64 : Shape := ⟨4, ![32, 256, 64, 64]⟩
abbrev S32x256 : Shape := ⟨2, ![32, 256]⟩
abbrev S32 : Shape := ⟨1, ![32]⟩
abbrev S32x256x4096 : Shape := ⟨3, ![32, 256, 4096]⟩
abbrev S32x4096x256 : Shape := ⟨3, ![32, 4096, 256]⟩
abbrev S32x32x256 : Shape := ⟨3, ![32, 32, 256]⟩
abbrev S1x4096x256 : Shape := ⟨3, ![1, 4096, 256]⟩
abbrev S1x32x256 : Shape := ⟨3, ![1, 32, 256]⟩
abbrev S4096x256 : Shape := ⟨2, ![4096, 256]⟩
abbrev S4096 : Shape := ⟨1, ![4096]⟩
abbrev S4096x1 : Shape := ⟨2, ![4096, 1]⟩
abbrev S4096x32 : Shape := ⟨2, ![4096, 32]⟩
abbrev S1x32 : Shape := ⟨2, ![1, 32]⟩
abbrev S32x1 : Shape := ⟨2, ![32, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S32x256x4096, .f32⟩
  | .hbm, ⟨4, _⟩ => ⟨S32x4096x256, .f32⟩
  | .hbm, ⟨5, _⟩ => ⟨S32x32x256, .f32⟩
  | .local _ .vmem, ⟨0, _⟩ => ⟨S1x4096x256, .f32⟩
  | .local _ .vmem, ⟨1, _⟩ => ⟨S1x4096x256, .f32⟩
  | .local _ .vmem, ⟨2, _⟩ => ⟨S32x256, .f32⟩
  | .local _ .vmem, ⟨3, _⟩ => ⟨S32, .f32⟩
  | .local _ .vmem, ⟨4, _⟩ => ⟨S1x32x256, .f32⟩
  | .local _ .vmem, ⟨5, _⟩ => ⟨S1x32x256, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x64x64_S32x256x4096 : S32x256x64x64.ShapeCasts S32x256x4096
  transposes_S32x256x4096_S32x4096x256_0_2_1 : S32x256x4096.Transposes [0, 2, 1] S32x4096x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S32x256_S32x256_0_0 : ∀ a, (![0, 0] : Fin 2 → Nat) a + S32x256.size a ≤ S32x256.size a
  h_S32x256 : 0 < S32x256.numel
  inb_S32_S32_0 : ∀ a, (![0] : Fin 1 → Nat) a + S32.size a ≤ S32.size a
  h_S32 : 0 < S32.numel
  bitsLt_bf16_f32 : FTy.bits .bf16 < FTy.bits .f32
  reduces_S4096x256_S4096 : S4096x256.Reduces [1] S4096
  shapeCasts_S4096_S4096x1 : S4096.ShapeCasts S4096x1
  reduces_S32x256_S32 : S32x256.Reduces [1] S32
  shapeCasts_S32_S1x32 : S32.ShapeCasts S1x32
  broadcasts_S4096x1_S4096x32 : S4096x1.Broadcasts S4096x32
  broadcasts_S1x32_S4096x32 : S1x32.Broadcasts S4096x32
  reduces_S4096x32_S4096 : S4096x32.Reduces [1] S4096
  reduces_S4096x32_S32 : S4096x32.Reduces [0] S32
  transposes_S1x32_p1_0_S32x1 : S1x32.Transposes [1, 0] S32x1
  broadcasts_S32x1_S32x256 : S32x1.Broadcasts S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  dot_S4096x256_S32x256_S4096x32_1_1_0_0_n_n_wf : DotDims.WF S4096x256 S32x256 S4096x32 [1] [1] [0] [0] [] []
  dot_S4096x32_S4096x256_S32x256_0_0_1_1_n_n_wf : DotDims.WF S4096x32 S4096x256 S32x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x4096x256.size a
  hwx0_0 : ∀ i : grid0.Coords, EltTy.bits .f32 = 32 ∨ (Rect.block (s := S32x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256.size a ≤ S32x32x256.size a
  hwx0_3 : ∀ i : grid0.Coords, EltTy.bits .f32 = 32 ∨ (Rect.block (s := S32x32x256) S1x32x256.size (cc0_transform_3 i) (hinb0_3 i)).WholeWords (EltTy.packing .f32)

variable [Facts₀]

def dot_S4096x256_S32x256_S4096x32_1_1_0_0_n_n : DotDims S4096x256 S32x256 S4096x32 where
  lhsContracting := [1]
  rhsContracting := [1]
  lhsNonContracting := [0]
  rhsNonContracting := [0]
  lhsBatch := []
  rhsBatch := []
  wf := dot_S4096x256_S32x256_S4096x32_1_1_0_0_n_n_wf
def dot_S4096x32_S4096x256_S32x256_0_0_1_1_n_n : DotDims S4096x32 S4096x256 S32x256 where
  lhsContracting := [0]
  rhsContracting := [0]
  lhsNonContracting := [1]
  rhsNonContracting := [1]
  lhsBatch := []
  rhsBatch := []
  wf := dot_S4096x32_S4096x256_S32x256_0_0_1_1_n_n_wf

abbrev win0_0 : Pipeline.Window sig grid0 :=
  Pipeline.Window.ofSpec (Memref.whole main_v1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S32x256x4096 : Shape := ⟨3, ![32, 256, 4096]⟩
abbrev S32x4096x256 : Shape := ⟨3, ![32, 4096, 256]⟩
abbrev S_ : Shape := ⟨0, ![]⟩
abbrev S32x4096 : Shape := ⟨2, ![32, 4096]⟩
abbrev S32x4096x1 : Shape := ⟨3, ![32, 4096, 1]⟩
abbrev S32x4096x32 : Shape := ⟨3, ![32, 4096, 32]⟩
abbrev S1x1x32 : Shape := ⟨3, ![1, 1, 32]⟩
abbrev S32x32x256 : Shape := ⟨3, ![32, 32, 256]⟩
abbrev S32x32 : Shape := ⟨2, ![32, 32]⟩
abbrev S32x32x1 : Shape := ⟨3, ![32, 32, 1]⟩
abbrev S1x32x256 : Shape := ⟨3, ![1, 32, 256]⟩

abbrev nBuf : Space → Nat
  | .hbm => 47
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S32x256x4096, .f32⟩
  | .hbm, ⟨4, _⟩ => ⟨S32x4096x256, .f32⟩
  | .hbm, ⟨5, _⟩ => ⟨S32x4096x256, .f32⟩
  | .hbm, ⟨6, _⟩ => ⟨S_, .f32⟩
  | .hbm, ⟨7, _⟩ => ⟨S32x4096, .f32⟩
  | .hbm, ⟨8, _⟩ => ⟨S32x4096x1, .f32⟩
  | .hbm, ⟨9, _⟩ => ⟨S32x256, .f32⟩
  | .hbm, ⟨10, _⟩ => ⟨S_, .f32⟩
  | .hbm, ⟨11, _⟩ => ⟨S32, .f32⟩
  | .hbm, ⟨12, _⟩ => ⟨S32x4096x32, .f32⟩
  | .hbm, ⟨13, _⟩ => ⟨S1x1x32, .f32⟩
  | .hbm, ⟨14, _⟩ => ⟨S_, .f32⟩
  | .hbm, ⟨15, _⟩ => ⟨S32x4096x32, .f32⟩
  | .hbm, ⟨16, _⟩ => ⟨S32x4096x32, .f32⟩
  | .hbm, ⟨17, _⟩ => ⟨S32x4096x32, .f32⟩
  | .hbm, ⟨18, _⟩ => ⟨S32x4096x32, .f32⟩
  | .hbm, ⟨19, _⟩ => ⟨S1x1x32, .f32⟩
  | .hbm, ⟨20, _⟩ => ⟨S32x4096x32, .f32⟩
  | .hbm, ⟨21, _⟩ => ⟨S32x4096x32, .f32⟩
  | .hbm, ⟨22, _⟩ => ⟨S32x4096x32, .f32⟩
  | .hbm, ⟨23, _⟩ => ⟨S32x4096x32, .f32⟩
  | .hbm, ⟨24, _⟩ => ⟨S_, .f32⟩
  | .hbm, ⟨25, _⟩ => ⟨S32x4096, .f32⟩
  | .hbm, ⟨26, _⟩ => ⟨S_, .f32⟩
  | .hbm, ⟨27, _⟩ => ⟨S32x4096, .f32⟩
  | .hbm, ⟨28, _⟩ => ⟨S32x4096, .f32⟩
  | .hbm, ⟨29, _⟩ => ⟨S32x4096x1, .f32⟩
  | .hbm, ⟨30, _⟩ => ⟨S32x4096x32, .f32⟩
  | .hbm, ⟨31, _⟩ => ⟨S32x4096x32, .f32⟩
  | .hbm, ⟨32, _⟩ => ⟨S32x4096x32, .f32⟩
  | .hbm, ⟨33, _⟩ => ⟨S_, .f32⟩
  | .hbm, ⟨34, _⟩ => ⟨S32x4096, .f32⟩
  | .hbm, ⟨35, _⟩ => ⟨S32x4096x1, .f32⟩
  | .hbm, ⟨36, _⟩ => ⟨S32x4096x32, .f32⟩
  | .hbm, ⟨37, _⟩ => ⟨S32x4096x32, .f32⟩
  | .hbm, ⟨38, _⟩ => ⟨S32x32x256, .f32⟩
  | .hbm, ⟨39, _⟩ => ⟨S_, .f32⟩
  | .hbm, ⟨40, _⟩ => ⟨S32x32, .f32⟩
  | .hbm, ⟨41, _⟩ => ⟨S32x32x1, .f32⟩
  | .hbm, ⟨42, _⟩ => ⟨S1x32x256, .f32⟩
  | .hbm, ⟨43, _⟩ => ⟨S32x32x256, .f32⟩
  | .hbm, ⟨44, _⟩ => ⟨S32x32x256, .f32⟩
  | .hbm, ⟨45, _⟩ => ⟨S32x32x256, .f32⟩
  | .hbm, ⟨46, _⟩ => ⟨S32x32x256, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  transposes_S32x256x4096_S32x4096x256_0_2_1 : S32x256x4096.Transposes [0, 2, 1] S32x4096x256
  reducesTo_S32x4096x256_S32x4096_d2 : S32x4096x256.ReducesTo [2] S32x4096
  h_S_ : 0 < S_.numel
  bcast_S32x4096_S32x4096x1_0_1 : S32x4096.BroadcastsInDim S32x4096x1 (![0, 1] : Fin 2 → Fin S32x4096x1.rank)
  reducesTo_S32x256_S32_d1 : S32x256.ReducesTo [1] S32
  bcast_S32_S1x1x32_2 : S32.BroadcastsInDim S1x1x32 (![2] : Fin 1 → Fin S1x1x32.rank)
  bcast_S_S32x4096x32 : S_.BroadcastsInDim S32x4096x32 (![] : Fin 0 → Fin S32x4096x32.rank)
  bcast_S32x4096x1_S32x4096x32_0_1_2 : S32x4096x1.BroadcastsInDim S32x4096x32 (![0, 1, 2] : Fin 3 → Fin S32x4096x32.rank)
  bcast_S1x1x32_S32x4096x32_0_1_2 : S1x1x32.BroadcastsInDim S32x4096x32 (![0, 1, 2] : Fin 3 → Fin S32x4096x32.rank)
  reducesTo_S32x4096x32_S32x4096_d2 : S32x4096x32.ReducesTo [2] S32x4096
  bcast_S_S32x4096 : S_.BroadcastsInDim S32x4096 (![] : Fin 0 → Fin S32x4096.rank)
  reducesTo_S32x4096x32_S32x32_d1 : S32x4096x32.ReducesTo [1] S32x32
  bcast_S32x32_S32x32x1_0_1 : S32x32.BroadcastsInDim S32x32x1 (![0, 1] : Fin 2 → Fin S32x32x1.rank)
  bcast_S32x256_S1x32x256_1_2 : S32x256.BroadcastsInDim S1x32x256 (![1, 2] : Fin 2 → Fin S1x32x256.rank)
  bcast_S32x32x1_S32x32x256_0_1_2 : S32x32x1.BroadcastsInDim S32x32x256 (![0, 1, 2] : Fin 3 → Fin S32x32x256.rank)
  bcast_S1x32x256_S32x32x256_0_1_2 : S1x32x256.BroadcastsInDim S32x32x256 (![0, 1, 2] : Fin 3 → Fin S32x32x256.rank)
  dot_S32x4096x256_S32x256_S32x4096x32_2_1_01_0_n_n_wf : DotDims.WF S32x4096x256 S32x256 S32x4096x32 [2] [1] [0, 1] [0] [] []
  dot_S32x4096x32_S32x4096x256_S32x32x256_1_1_2_2_0_0_wf : DotDims.WF S32x4096x32 S32x4096x256 S32x32x256 [1] [1] [2] [2] [0] [0]

variable [Facts₀]

def dot_S32x4096x256_S32x256_S32x4096x32_2_1_01_0_n_n : DotDims S32x4096x256 S32x256 S32x4096x32 where
  lhsContracting := [2]
  rhsContracting := [1]
  lhsNonContracting := [0, 1]
  rhsNonContracting := [0]
  lhsBatch := []
  rhsBatch := []
  wf := dot_S32x4096x256_S32x256_S32x4096x32_2_1_01_0_n_n_wf
def dot_S32x4096x32_S32x4096x256_S32x32x256_1_1_2_2_0_0 : DotDims S32x4096x32 S32x4096x256 S32x32x256 where
  lhsContracting := [1]
  rhsContracting := [1]
  lhsNonContracting := [2]
  rhsNonContracting := [2]
  lhsBatch := [0]
  rhsBatch := [0]
  wf := dot_S32x4096x32_S32x4096x256_S32x32x256_1_1_2_2_0_0_wf

class Facts : Prop extends Facts₀ where

variable [Facts]
-- ==== Proof.Encoding.lean ====
/-
  The encoding layer of one image, over the extended reals, and the whole batch's result array.

  An image is N rows x_i of d channels; there are k codewords c_j and k smoothing factors s_j.
  The logit of row i against codeword j is the scaled squared distance s_j · ‖x_i − c_j‖², written
  expanded as s_j · ((‖x_i‖² − 2⟨x_i, c_j⟩) + ‖c_j‖²). Each row's logits go through a softmax over j
  (shifted by the row's maximum, itself capped below by the value of the −∞ word), giving the weights w_ij, and the
  encoding of the image is  e_j = Σ_i w_ij x_i − (Σ_i w_ij) c_j,  a k × d array.

  Both programs compute exactly this expression, operation for operation: no algebraic law relates
  them beyond reading a reduction over one axis as the sum (or the maximum) over that axis's coordinates.
-/
import Idealize.ShloMosaic.PureOps.Ideal
import Idealize.ShloMosaic.Lib.ValueIdx

open scoped BigOperators

noncomputable section

namespace Cert.Encoding

open Idealize.ShloMosaic Idealize.ShloMosaic.ValueIdx

section OneImage
variable {n d k : ℕ}

/-- The logit of row i against codeword j: s_j · ((‖x_i‖² − two · ⟨x_i, c_j⟩) + ‖c_j‖²). -/
def logit (two : EReal) (x : Fin n → Fin d → EReal) (cw : Fin k → Fin d → EReal) (sc : Fin k → EReal)
    (i : Fin n) (j : Fin k) : EReal :=
  sc j * (((∑ c, x i c * x i c) - two * ∑ c, x i c * cw j c) + ∑ c, cw j c * cw j c)

/-- The shift of a row's softmax: the largest logit of the row, and at least the floor. -/
def rowMax (floor : EReal) (l : Fin k → EReal) : EReal :=
  max floor ((Finset.univ : Finset (Fin k)).fold max floor l)

/-- The softmax weight of codeword j for row i. -/
def weight (two floor : EReal) (x : Fin n → Fin d → EReal) (cw : Fin k → Fin d → EReal) (sc : Fin k → EReal)
    (i : Fin n) (j : Fin k) : EReal :=
  Ideal.div (Ideal.exp (logit two x cw sc i j - rowMax floor (logit two x cw sc i)))
    (∑ j' : Fin k, Ideal.exp (logit two x cw sc i j' - rowMax floor (logit two x cw sc i)))

/-- The encoding at (j, c): Σ_i w_ij x_ic − (Σ_i w_ij) c_jc. -/
def aggregate (two floor : EReal) (x : Fin n → Fin d → EReal) (cw : Fin k → Fin d → EReal) (sc : Fin k → EReal)
    (j : Fin k) (c : Fin d) : EReal :=
  (∑ i : Fin n, weight two floor x cw sc i j * x i c) - (∑ i : Fin n, weight two floor x cw sc i j) * cw j c

end OneImage

/-! ## The batch: 32 images of 256 channels on a 64 × 64 grid, 32 codewords -/

/-- The value of the word 2.0. -/
abbrev two : EReal := Ideal.ofBits .f32 0x40000000#32
/-- The value of the word −∞. -/
abbrev floor : EReal := Ideal.ofBits .f32 0xFF800000#32

/-- Row i of image b is the pixel (i / 64, i % 64), channel by channel. -/
def imageRows (x : (⟨4, ![32, 256, 64, 64]⟩ : Shape).Idx → EReal) (b : Fin 32) (i : Fin 4096) (c : Fin 256) : EReal :=
  x (ix4 b c (⟨i.val / 64, by have := i.isLt; omega⟩ : Fin 64) (⟨i.val % 64, by omega⟩ : Fin 64))

/-- The codewords as rows. -/
def codeRows (cw : (⟨2, ![32, 256]⟩ : Shape).Idx → EReal) (j : Fin 32) (c : Fin 256) : EReal := cw (ix2 j c)

/-- The smoothing factors. -/
def factors (sc : (⟨1, ![32]⟩ : Shape).Idx → EReal) (j : Fin 32) : EReal := sc (ix1 j)

/-- The whole result: image by image, the encoding. -/
def encoded (x : (⟨4, ![32, 256, 64, 64]⟩ : Shape).Idx → EReal) (cw : (⟨2, ![32, 256]⟩ : Shape).Idx → EReal)
    (sc : (⟨1, ![32]⟩ : Shape).Idx → EReal) : (⟨3, ![32, 32, 256]⟩ : Shape).Idx → EReal :=
  fun i => aggregate two floor (imageRows x ⟨(i 0).val, (i 0).isLt⟩) (codeRows cw) (factors sc)
    ⟨(i 1).val, (i 1).isLt⟩ ⟨(i 2).val, (i 2).isLt⟩

theorem encoded_apply (x : (⟨4, ![32, 256, 64, 64]⟩ : Shape).Idx → EReal) (cw : (⟨2, ![32, 256]⟩ : Shape).Idx → EReal)
    (sc : (⟨1, ![32]⟩ : Shape).Idx → EReal) (b : Fin 32) (j : Fin 32) (c : Fin 256) :
    encoded x cw sc (ix3 b j c) = aggregate two floor (imageRows x b) (codeRows cw) (factors sc) j c := rfl

end Cert.Encoding

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.LibColumnSum.lean ====
/-
  The sum down the rows of a matrix, read at a column (a general lemma file: it imports only the library and is
  generic in the extents).

  A reduction of an [a, b] array along its first axis leaves a vector of length b; at column j it is the plain finite sum
  over the rows r of the entry (r, j), with every index spelt by its coordinates.
-/
import Idealize.ShloMosaic.Lib.ValueIdx
import Idealize.ShloMosaic.PureOps.Ideal.Laws

open scoped BigOperators

namespace Cert.LibColumnSum

open Idealize.ShloMosaic Idealize.ShloMosaic.ValueIdx

/-- Over [a, b] reduced along its rows, the index above column j with coordinate r is (r, j). -/
theorem lift_ab_first {a b : ℕ} (h : Shape.Reduces ⟨2, ![a, b]⟩ [0] ⟨1, ![b]⟩) (j : Fin b) (r : Fin a) :
    h.lift (ix1 j) r = ix2 r j := by
  funext x
  match x with
  | ⟨0, _⟩ => exact Fin.ext rfl
  | ⟨1, _⟩ => exact Fin.ext rfl

/-- The sum down the rows of an [a, b] array of extended reals, at column j. -/
theorem sum_ab_first {a b : ℕ} (src : FVec Ideal ⟨2, ![a, b]⟩ .f32)
    (h : Shape.Reduces ⟨2, ![a, b]⟩ [0] ⟨1, ![b]⟩) (hacc : (0x00000000#32 : BitVec 32) = 0x00000000#32) (j : Fin b) :
    multiReduction (s := ⟨2, ![a, b]⟩) .add ([0] : List (Fin 2)) ⟨1, ![b]⟩ src 0x00000000#32 h (.inl rfl) hacc (ix1 j)
      = ∑ r : Fin a, src (ix2 r j) :=
  (Ideal.multiReduction_add_single src 0x00000000#32 h (.inl rfl) hacc (ix1 j)).trans
    (Finset.sum_congr rfl fun r _ => congrArg src (lift_ab_first h j r))

end Cert.LibColumnSum
-- ==== Proof.KernelTile.lean ====
/-
  What the kernel's body computes from one image, read at an index.

  The body receives one image as a [1, 4096, 256] block (its rows), the codewords [32, 256] and the smoothing
  factors [32]. Its result, a [32, 256] array, is cut here into the stages of the computation — the rows, the logits,
  the row maxima, the exponentials, the weights — and each stage is read at an index: it is the corresponding
  expression of the encoding layer (Encoding.lean) of the rows, the codewords and the factors. The two matrix products
  into a zero accumulator are plain sums over the contracted coordinate, the reductions over one axis plain sums or
  the fold of max over that axis's coordinates, and the changes of float format are the identity.
-/
import proofs.«168967_j1039382085701_1_alg».proof.Proof.Gen.KernelIdeal.Skeleton
import proofs.«168967_j1039382085701_1_alg».proof.Proof.LibLayout3
import proofs.«168967_j1039382085701_1_alg».proof.Proof.LibColumnSum
import proofs.«168967_j1039382085701_1_alg».proof.Proof.Encoding
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tile

open Cert.KernelIdeal Cert.KernelIdeal.Gen Idealize.ShloMosaic Idealize.ShloMosaic.ValueIdx Cert.Encoding Cert.LibLayout3 Cert.LibColumnSum

/-! ## The body's two matrix products -/

/-- In the rows-by-codewords product the left operand's row is the output's row … -/
theorem rowsCodes_lhs0 (i : S4096x32.Idx) (q : dot_S4096x256_S32x256_S4096x32_1_1_0_0_n_n.contr.Idx) :
    (dot_S4096x256_S32x256_S4096x32_1_1_0_0_n_n.lhsIdx i q 0).val = (i 0).val := by
  unfold DotDims.lhsIdx
  rw [dif_neg (show ¬(0 : Fin S4096x256.rank) ∈ dot_S4096x256_S32x256_S4096x32_1_1_0_0_n_n.lhsBatch by decide), dif_pos (show (0 : Fin S4096x256.rank) ∈ dot_S4096x256_S32x256_S4096x32_1_1_0_0_n_n.lhsNonContracting by decide)]
  rfl
/-- … and the right operand's row is the output's column. -/
theorem rowsCodes_rhs0 (i : S4096x32.Idx) (q : dot_S4096x256_S32x256_S4096x32_1_1_0_0_n_n.contr.Idx) :
    (dot_S4096x256_S32x256_S4096x32_1_1_0_0_n_n.rhsIdx i q 0).val = (i 1).val := by
  unfold DotDims.rhsIdx
  rw [dif_neg (show ¬(0 : Fin S32x256.rank) ∈ dot_S4096x256_S32x256_S4096x32_1_1_0_0_n_n.rhsBatch by decide), dif_pos (show (0 : Fin S32x256.rank) ∈ dot_S4096x256_S32x256_S4096x32_1_1_0_0_n_n.rhsNonContracting by decide)]
  rfl
/-- In the weights-by-rows product the left operand's column is the output's row … -/
theorem weightsRows_lhs1 (i : S32x256.Idx) (q : dot_S4096x32_S4096x256_S32x256_0_0_1_1_n_n.contr.Idx) :
    (dot_S4096x32_S4096x256_S32x256_0_0_1_1_n_n.lhsIdx i q 1).val = (i 0).val := by
  unfold DotDims.lhsIdx
  rw [dif_neg (show ¬(1 : Fin S4096x32.rank) ∈ dot_S4096x32_S4096x256_S32x256_0_0_1_1_n_n.lhsBatch by decide), dif_pos (show (1 : Fin S4096x32.rank) ∈ dot_S4096x32_S4096x256_S32x256_0_0_1_1_n_n.lhsNonContracting by decide)]
  rfl
/-- … and the right operand's column is the output's column. -/
theorem weightsRows_rhs1 (i : S32x256.Idx) (q : dot_S4096x32_S4096x256_S32x256_0_0_1_1_n_n.contr.Idx) :
    (dot_S4096x32_S4096x256_S32x256_0_0_1_1_n_n.rhsIdx i q 1).val = (i 1).val := by
  unfold DotDims.rhsIdx
  rw [dif_neg (show ¬(1 : Fin S4096x256.rank) ∈ dot_S4096x32_S4096x256_S32x256_0_0_1_1_n_n.rhsBatch by decide), dif_pos (show (1 : Fin S4096x256.rank) ∈ dot_S4096x32_S4096x256_S32x256_0_0_1_1_n_n.rhsNonContracting by decide)]
  rfl

/-- The product of the rows with the codewords, contracted over the channels: at (i, j) the sum over the channels. -/
theorem dotRowsCodes_apply (l : FVec Ideal S4096x256 .bf16) (r : FVec Ideal S32x256 .bf16) (i : Fin 4096) (j : Fin 32) :
    matmul dot_S4096x256_S32x256_S4096x32_1_1_0_0_n_n none l r (constant S4096x32 .f32 0x00000000#32) (ix2 i j)
      = ∑ c : Fin 256, l (ix2 i c) * r (ix2 j c) := by
  simp only [matmul]
  rw [Ideal.matmul_constant_zero_apply, ← Equiv.sum_comp (contrEquiv1 dot_S4096x256_S32x256_S4096x32_1_1_0_0_n_n 256 rfl rfl).symm]
  refine Finset.sum_congr rfl fun c _ => ?_
  have hk := contrEquiv1_symm_val dot_S4096x256_S32x256_S4096x32_1_1_0_0_n_n 256 rfl rfl c
  have el : dot_S4096x256_S32x256_S4096x32_1_1_0_0_n_n.lhsIdx (ix2 i j) ((contrEquiv1 dot_S4096x256_S32x256_S4096x32_1_1_0_0_n_n 256 rfl rfl).symm c) = ix2 i c := funext fun a => Fin.ext (by
    match a with
    | ⟨0, _⟩ => exact rowsCodes_lhs0 _ _
    | ⟨1, _⟩ => exact (dot_S4096x256_S32x256_S4096x32_1_1_0_0_n_n.lhsIdx_val_of_single rfl _ _).trans hk)
  have er : dot_S4096x256_S32x256_S4096x32_1_1_0_0_n_n.rhsIdx (ix2 i j) ((contrEquiv1 dot_S4096x256_S32x256_S4096x32_1_1_0_0_n_n 256 rfl rfl).symm c) = ix2 j c := funext fun a => Fin.ext (by
    match a with
    | ⟨0, _⟩ => exact rowsCodes_rhs0 _ _
    | ⟨1, _⟩ => exact (dot_S4096x256_S32x256_S4096x32_1_1_0_0_n_n.rhsIdx_val_of_single rfl _ _).trans hk)
  rw [el, er]

/-- The product of the weights, transposed, with the rows, contracted over the rows: at (j, c) the sum over the rows. -/
theorem dotWeightsRows_apply (l : FVec Ideal S4096x32 .bf16) (r : FVec Ideal S4096x256 .bf16) (j : Fin 32) (c : Fin 256) :
    matmul dot_S4096x32_S4096x256_S32x256_0_0_1_1_n_n none l r (constant S32x256 .f32 0x00000000#32) (ix2 j c)
      = ∑ i : Fin 4096, l (ix2 i j) * r (ix2 i c) := by
  simp only [matmul]
  rw [Ideal.matmul_constant_zero_apply, ← Equiv.sum_comp (contrEquiv1 dot_S4096x32_S4096x256_S32x256_0_0_1_1_n_n 4096 rfl rfl).symm]
  refine Finset.sum_congr rfl fun i _ => ?_
  have hk := contrEquiv1_symm_val dot_S4096x32_S4096x256_S32x256_0_0_1_1_n_n 4096 rfl rfl i
  have el : dot_S4096x32_S4096x256_S32x256_0_0_1_1_n_n.lhsIdx (ix2 j c) ((contrEquiv1 dot_S4096x32_S4096x256_S32x256_0_0_1_1_n_n 4096 rfl rfl).symm i) = ix2 i j := funext fun a => Fin.ext (by
    match a with
    | ⟨0, _⟩ => exact (dot_S4096x32_S4096x256_S32x256_0_0_1_1_n_n.lhsIdx_val_of_single rfl _ _).trans hk
    | ⟨1, _⟩ => exact weightsRows_lhs1 _ _)
  have er : dot_S4096x32_S4096x256_S32x256_0_0_1_1_n_n.rhsIdx (ix2 j c) ((contrEquiv1 dot_S4096x32_S4096x256_S32x256_0_0_1_1_n_n 4096 rfl rfl).symm i) = ix2 i c := funext fun a => Fin.ext (by
    match a with
    | ⟨0, _⟩ => exact (dot_S4096x32_S4096x256_S32x256_0_0_1_1_n_n.rhsIdx_val_of_single rfl _ _).trans hk
    | ⟨1, _⟩ => exact weightsRows_rhs1 _ _)
  rw [el, er]

/-! ## The stages of the body -/

section Stages
variable (P0 : Vec Ideal S1x4096x256 .f32) (P1 : Vec Ideal S32x256 .f32) (P2 : Vec Ideal S32 .f32)

/-- The image's rows: the block without its unit axis. -/
def rows : FVec Ideal S4096x256 .f32 := shapeCast S4096x256 P0 shapeCasts_S1x4096x256_S4096x256

/-- The logits: the factors' row times ((the rows' squared norms, as a column, minus twice the rows-by-codewords product)
    plus the codewords' squared norms, as a row). -/
def logits : FVec Ideal S4096x32 .f32 :=
  mulf (broadcastTo S4096x32 (shapeCast S1x32 P2 shapeCasts_S32_S1x32) broadcasts_S1x32_S4096x32)
    (addf
      (subf
        (broadcastTo S4096x32 (shapeCast S4096x1 (multiReduction .add [1] S4096 (mulf (rows P0) (rows P0)) 0x00000000#32 reduces_S4096x256_S4096 (.inl rfl) rfl) shapeCasts_S4096_S4096x1) broadcasts_S4096x1_S4096x32)
        (mulf (broadcast S4096x32 (Scalar.ofBits .f32 0x40000000#32))
          (matmul dot_S4096x256_S32x256_S4096x32_1_1_0_0_n_n none (truncf .bf16 (rows P0) bitsLt_bf16_f32) (truncf .bf16 P1 bitsLt_bf16_f32) (constant S4096x32 .f32 0x00000000#32))))
      (broadcastTo S4096x32 (shapeCast S1x32 (multiReduction .add [1] S32 (mulf P1 P1) 0x00000000#32 reduces_S32x256_S32 (.inl rfl) rfl) shapeCasts_S32_S1x32) broadcasts_S1x32_S4096x32))

/-- Each row's shift: the maximum of its logits, capped below by −∞. -/
def shifts : FVec Ideal S4096 .f32 :=
  maximumf (broadcast S4096 (Scalar.ofBits .f32 0xFF800000#32))
    (multiReduction .maximumf [1] S4096 (logits P0 P1 P2) 0xFF800000#32 reduces_S4096x32_S4096 (.inl rfl) rfl)

/-- The exponentials of the shifted logits. -/
def exps : FVec Ideal S4096x32 .f32 :=
  exp (subf (logits P0 P1 P2) (broadcastTo S4096x32 (shapeCast S4096x1 (shifts P0 P1 P2) shapeCasts_S4096_S4096x1) broadcasts_S4096x1_S4096x32))

/-- The weights: each exponential over its row's sum. -/
def weights : FVec Ideal S4096x32 .f32 :=
  divf (exps P0 P1 P2)
    (broadcastTo S4096x32 (shapeCast S4096x1 (multiReduction .add [1] S4096 (exps P0 P1 P2) 0x00000000#32 reduces_S4096x32_S4096 (.inl rfl) rfl) shapeCasts_S4096_S4096x1) broadcasts_S4096x1_S4096x32)

/-- The body's result in stages: the weights-by-rows product minus the weights' column sums (as a column) times the codewords. -/
theorem pay_eq : k0_pay2 (F := Ideal) P0 P1 P2
    = subf (matmul dot_S4096x32_S4096x256_S32x256_0_0_1_1_n_n none (truncf .bf16 (weights P0 P1 P2) bitsLt_bf16_f32) (truncf .bf16 (rows P0) bitsLt_bf16_f32) (constant S32x256 .f32 0x00000000#32))
        (mulf (broadcastTo S32x256 (transpose S32x1 [1, 0] (shapeCast S1x32 (multiReduction .add [0] S32 (weights P0 P1 P2) 0x00000000#32 reduces_S4096x32_S32 (.inl rfl) rfl) shapeCasts_S32_S1x32) transposes_S1x32_p1_0_S32x1) broadcasts_S32x1_S32x256) P1) := rfl

/-- The rows, the codewords and the factors as functions of their coordinates. -/
abbrev xr : Fin 4096 → Fin 256 → EReal := fun i c => P0 (ix3 (0 : Fin 1) i c)
abbrev cr : Fin 32 → Fin 256 → EReal := fun j c => P1 (ix2 j c)
abbrev fr : Fin 32 → EReal := fun j => P2 (ix1 j)

theorem rows_apply (i : Fin 4096) (c : Fin 256) : rows P0 (ix2 i c) = P0 (ix3 (0 : Fin 1) i c) :=
  shapeCast_1ab_ab_apply P0 _ i c

theorem logits_apply (i : Fin 4096) (j : Fin 32) :
    logits P0 P1 P2 (ix2 i j) = logit two (xr P0) (cr P1) (fr P2) i j := by
  unfold logits logit
  rw [mulf_apply, addf_apply, subf_apply, mulf_apply, broadcast_apply,
    broadcastTo_1b_ab_apply, shapeCast_a_1a_apply, broadcastTo_a1_ab_apply, shapeCast_a_a1_apply, sum_ab_last,
    dotRowsCodes_apply, broadcastTo_1b_ab_apply, shapeCast_a_1a_apply, sum_ab_last]
  simp only [mulf_apply, truncf_apply, rows_apply]
  rfl

theorem shifts_apply (i : Fin 4096) :
    shifts P0 P1 P2 (ix1 i) = rowMax floor (logit two (xr P0) (cr P1) (fr P2) i) := by
  unfold shifts rowMax
  rw [maximumf_apply, broadcast_apply, max_ab_last]
  simp only [logits_apply]
  rfl

theorem exps_apply (i : Fin 4096) (j : Fin 32) :
    exps P0 P1 P2 (ix2 i j)
      = Ideal.exp (logit two (xr P0) (cr P1) (fr P2) i j - rowMax floor (logit two (xr P0) (cr P1) (fr P2) i)) := by
  unfold exps
  refine congrArg Ideal.exp ?_
  rw [subf_apply, broadcastTo_a1_ab_apply, shapeCast_a_a1_apply, logits_apply, shifts_apply]

theorem weights_apply (i : Fin 4096) (j : Fin 32) :
    weights P0 P1 P2 (ix2 i j) = weight two floor (xr P0) (cr P1) (fr P2) i j := by
  unfold weights weight
  rw [divf_apply, broadcastTo_a1_ab_apply, shapeCast_a_a1_apply, sum_ab_last]
  simp only [exps_apply]

/-- THE BODY'S RESULT AT (j, c): the encoding of the block's rows. -/
theorem pay_apply (j : Fin 32) (c : Fin 256) :
    k0_pay2 (F := Ideal) P0 P1 P2 (ix2 j c) = aggregate two floor (xr P0) (cr P1) (fr P2) j c := by
  rw [pay_eq]
  unfold aggregate
  rw [subf_apply, mulf_apply, dotWeightsRows_apply, broadcastTo_a1_ab_apply, transpose_ix2_apply, shapeCast_a_1a_apply,
    sum_ab_first]
  simp only [truncf_apply, weights_apply, rows_apply]

end Stages

end Cert.KernelIdeal.Tile

end
-- ==== Proof.KernelArray.lean ====
/-
  From the kernel's blocks to its result array.

  The grid has one point per image. At point t the body reads block t of the reshaped and transposed batch — the rows
  of image t —, the codewords and the factors whole, and writes block t of the result, a [1, 32, 256] slab: the
  encoding of image t. The 32 slabs tile the [32, 32, 256] result, so after the run the result array is the encoding
  of the batch (Encoding.lean), index by index.
-/
import proofs.«168967_j1039382085701_1_alg».proof.Proof.Gen.KernelIdeal.Value
import proofs.«168967_j1039382085701_1_alg».proof.Proof.KernelTile
import proofs.«168967_j1039382085701_1_alg».proof.Proof.Encoding
import Idealize.ShloMosaic.Lib.Pipeline.Value
import Idealize.ShloMosaic.Lib.StableHlo.Run
import Idealize.ShloMosaic.Lib.ValueLayout
import Idealize.ShloMosaic.Lib.Tactic

open scoped BigOperators

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Encoding Cert.KernelIdeal.Tile
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The array the first window stages -/

/-- When the region is entered the first window's array holds the batch reshaped to [32, 256, 4096] and transposed
    to [32, 4096, 256]. -/
theorem staged (c : Dev nD) : (V m c main_v1 : S32x4096x256.Idx → EReal)
    = transpose S32x4096x256 [0, 2, 1] (shapeCast S32x256x4096 (m ((c : Thread nD τ).loc main_arg0)) shapeCasts_S32x256x64x64_S32x256x4096)
        transposes_S32x256x4096_S32x4096x256_0_2_1 := by
  dsimp only [Gen.V, Gen.hostOps0]; after_results; rfl

/-- At (image, row, channel) it holds that image's row. -/
theorem staged_apply (c : Dev nD) (b : Fin 32) (i : Fin 4096) (ch : Fin 256) :
    (V m c main_v1 : S32x4096x256.Idx → EReal) (ix3 b i ch) = imageRows (m ((c : Thread nD τ).loc main_arg0)) b i ch := by
  rw [staged, transpose_ix3_021_apply]
  unfold imageRows
  refine shapeCast_apply _ _ _ _ ?_
  show (S32x256x64x64.rowMajor (ix4 b ch (⟨i.val / 64, by have := i.isLt; omega⟩ : Fin 64) (⟨i.val % 64, by omega⟩ : Fin 64))).val
    = (S32x256x4096.rowMajor (ix3 b ch i)).val
  rw [Shape.rowMajor_val_four, Shape.rowMajor_val_three]
  have hb := b.isLt
  have hi := i.isLt
  have hc := ch.isLt
  show ((b.val * 256 + ch.val) * 64 + i.val / 64) * 64 + i.val % 64 = (b.val * 256 + ch.val) * 4096 + i.val
  omega

/-! ## The windows' blocks at a point -/

/-- The printed index maps, decided over the grid: the image window and the result window sit at block (t, 0, 0), the
    codewords and the factors at block 0. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 32 := lt_of_lt_of_eq t.isLt N_0

/-- The image window's block at point t is the rows of image t. -/
theorem image_block (c : Dev nD) (t : Fin cfg0.N) (i : Fin 4096) (ch : Fin 256) :
    (iblk m c 0 t : Vec Ideal S1x4096x256 .f32) (ix3 (0 : Fin 1) i ch)
      = imageRows (m ((c : Thread nD τ).loc main_arg0)) ⟨t.val, point_lt t⟩ i ch := by
  obtain ⟨e0, e1, e2, -⟩ := idx_facts t
  unfold iblk
  rw [View.read_apply]
  show (V m c main_v1 : S32x4096x256.Idx → EReal) _ = _
  rw [← staged_apply]
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * i.val = i.val; omega
  | ⟨2, _⟩ => show win0_0.index t (2 : Fin 3) * 256 + 1 * ch.val = ch.val; omega

/-- The codewords' window's block is the codewords. -/
theorem codes_block (c : Dev nD) (t : Fin cfg0.N) (j : Fin 32) (ch : Fin 256) :
    (iblk m c 1 t : Vec Ideal S32x256 .f32) (ix2 j ch) = codeRows (m ((c : Thread nD τ).loc main_arg1)) j ch := by
  obtain ⟨-, -, -, e0, e1, -⟩ := idx_facts t
  unfold iblk codeRows
  rw [View.read_apply]
  show V m c main_arg1 _ = _
  rw [V_main_arg1]
  refine congrArg _ (funext fun a => Fin.ext ?_)
  match a with
  | ⟨0, _⟩ => show win0_1.index t (0 : Fin 2) * 32 + 1 * j.val = j.val; omega
  | ⟨1, _⟩ => show win0_1.index t (1 : Fin 2) * 256 + 1 * ch.val = ch.val; omega

/-- The factors' window's block is the factors. -/
theorem factors_block (c : Dev nD) (t : Fin cfg0.N) (j : Fin 32) :
    (iblk m c 2 t : Vec Ideal S32 .f32) (ix1 j) = factors (m ((c : Thread nD τ).loc main_arg2)) j := by
  obtain ⟨-, -, -, -, -, e0, -⟩ := idx_facts t
  unfold iblk factors
  rw [View.read_apply]
  show V m c main_arg2 _ = _
  rw [V_main_arg2]
  refine congrArg _ (funext fun a => Fin.ext ?_)
  match a with
  | ⟨0, _⟩ => show win0_2.index t (0 : Fin 1) * 32 + 1 * j.val = j.val; omega

/-! ## What a point writes back -/

/-- A block of the result, stated over variables: whenever the three loaded blocks are the rows of image b, the
    codewords and the factors, the body leaves at y what the encoding of the batch has at (b, y 1, y 2). -/
theorem slab_eq (x0 : (⟨4, ![32, 256, 64, 64]⟩ : Shape).Idx → EReal) (x1 : (⟨2, ![32, 256]⟩ : Shape).Idx → EReal)
    (x2 : (⟨1, ![32]⟩ : Shape).Idx → EReal)
    (P0 : Vec Ideal S1x4096x256 .f32) (P1 : Vec Ideal S32x256 .f32) (P2 : Vec Ideal S32 .f32) (b : Fin 32)
    (h0 : ∀ (i : Fin 4096) (ch : Fin 256), P0 (ix3 (0 : Fin 1) i ch) = imageRows x0 b i ch)
    (h1 : ∀ (j : Fin 32) (ch : Fin 256), P1 (ix2 j ch) = codeRows x1 j ch)
    (h2 : ∀ j : Fin 32, P2 (ix1 j) = factors x2 j)
    (y : S1x32x256.Idx) (q : S32x32x256.Idx) (hq0 : (q 0).val = b.val) (hq1 : (q 1).val = (y 1).val)
    (hq2 : (q 2).val = (y 2).val) :
    View.canon ([⟨r0_3, k0_pay1 (k0_pay2 (F := Ideal) P0 P1 P2)⟩] : List (View.Piece (Elt Ideal) S1x32x256 .f32)) y = encoded x0 x1 x2 q := by
  rw [Cert.KernelIdeal.Value.canon3_eq]
  show k0_pay2 (F := Ideal) P0 P1 P2 (Cert.KernelIdeal.Value.ix3_0 y) = _
  obtain ⟨qb, qj, qc, rfl⟩ : ∃ (qb : Fin 32) (qj : Fin 32) (qc : Fin 256), q = ix3 qb qj qc := ⟨q 0, q 1, q 2, eq_ix3 q⟩
  have eb : qb = b := Fin.ext hq0
  subst eb
  rw [show Cert.KernelIdeal.Value.ix3_0 y = ix2 qj qc from by
      funext a
      match a with
      | ⟨0, _⟩ => exact Fin.ext hq1.symm
      | ⟨1, _⟩ => exact Fin.ext hq2.symm,
    pay_apply, encoded_apply]
  have ex : xr P0 = imageRows x0 qb := funext fun i => funext fun ch => h0 i ch
  have ec : cr P1 = codeRows x1 := funext fun j => funext fun ch => h1 j ch
  have ef : fr P2 = factors x2 := funext fun j => h2 j
  rw [ex, ec, ef]

/-- WHAT POINT t WRITES BACK is block t of the encoding of the batch. -/
theorem flushed_eq (c : Dev nD) (t : Fin cfg0.N) :
    (dats m 0 c).flushed 3 t = ((cfg0.win 3).blk t).view.read (Elt Ideal)
      (encoded (m ((c : Thread nD τ).loc main_arg0)) (m ((c : Thread nD τ).loc main_arg1)) (m ((c : Thread nD τ).loc main_arg2))) := by
  rw [Cert.KernelIdeal.Value.flushed3]
  unfold out0_3
  simp only [View.ld_unit_zero (S := S1x4096x256) hz3, View.ld_unit_zero (S := S32x256) hz2, View.ld_unit_zero (S := S32) hz1]
  obtain ⟨-, -, -, -, -, -, e0, e1, e2⟩ := idx_facts t
  funext y
  refine slab_eq (m ((c : Thread nD τ).loc main_arg0)) (m ((c : Thread nD τ).loc main_arg1)) (m ((c : Thread nD τ).loc main_arg2))
    (iblk m c 0 t) (iblk m c 1 t) (iblk m c 2 t) ⟨t.val, point_lt t⟩
    (image_block m c t) (codes_block m c t) (factors_block m c t) y (((cfg0.win 3).blk t).view.emb y) ?_ ?_ ?_
  · show win0_3.index t (0 : Fin 3) * 1 + 1 * (y 0).val = t.val
    have hy : (y 0).val < 1 := (y 0).isLt
    omega
  · show win0_3.index t (1 : Fin 3) * 32 + 1 * (y 1).val = (y 1).val
    omega
  · show win0_3.index t (2 : Fin 3) * 256 + 1 * (y 2).val = (y 2).val
    omega

/-! ## The slabs tile the result -/

/-- An index of the result is in point t's block iff each coordinate is in the block's range on its axis. -/
theorem mem_slab (t : Fin cfg0.N) (i : S32x32x256.Idx) :
    i ∈ ((cfg0.win 3).blk t).view.set ↔ ∀ a : Fin 3, win0_3.index t a * S1x32x256.size a ≤ (i a).val ∧ (i a).val < win0_3.index t a * S1x32x256.size a + S1x32x256.size a := by
  show i ∈ ((View.whole main_v2).slice (win0_3.rect t)).set ↔ _
  rw [View.set_slice_whole, Rect.mem_set_unit]
  exact Iff.rfl

/-- An index whose image coordinate is t is in the block of point t. -/
theorem mem_own_slab (t : Fin cfg0.N) (i : S32x32x256.Idx) (h : (i 0).val = t.val) : i ∈ ((cfg0.win 3).blk t).view.set := by
  have hi1 : (i 1).val < 32 := (i 1).isLt
  have hi2 : (i 2).val < 256 := (i 2).isLt
  rw [mem_slab]
  obtain ⟨-, -, -, -, -, -, e0, e1, e2⟩ := idx_facts t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 32 ≤ (i 1).val ∧ (i 1).val < win0_3.index t (1 : Fin 3) * 32 + 32
    omega
  | ⟨2, _⟩ =>
    show win0_3.index t (2 : Fin 3) * 256 ≤ (i 2).val ∧ (i 2).val < win0_3.index t (2 : Fin 3) * 256 + 256
    omega

/-- Every index (b, j, ch) of the result is in the block of point b. -/
theorem covered (i : S32x32x256.Idx) : ∃ t : Fin cfg0.N, (cfg0.win 3).flush t = true ∧ i ∈ ((cfg0.win 3).blk t).view.set :=
  ⟨⟨(i 0).val, lt_of_lt_of_eq (i 0).isLt N_0.symm⟩, flush0_3 _, mem_own_slab _ i rfl⟩

/-- THE RESULT ARRAY after the run is the encoding of the batch. -/
theorem final (c : Dev nD) : (dats m 0 c).arrAt 3 cfg0.N
    = encoded (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result array at the encoding of the batch, the arguments unchanged. -/
theorem run : θ_run defs (onTc (τ := τ) (main (F := Ideal))) ⟨m, fun _ => 0, ρ⟩ fun r => ∀ c : Dev nD,
      r.2.mem ((c : Thread nD τ).loc main_v2)
        = encoded (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.RefRead.lean ====
/-
  What the reference computes, read at an index.

  The reference reshapes the batch to [32, 4096, 256] (image, row, channel) and then follows the encoding layer's
  formula on whole arrays. Stage by stage — the rows, the three sums over the channels, the logits, each row's shift,
  the exponentials, the weights, the result — each array read at an index is the corresponding expression of the
  encoding layer (Encoding.lean) of that image's rows: a sum over one axis with a zero initial value is the plain sum
  over that axis's coordinates, the maximum over the codeword axis is the fold of max over its coordinates, a matrix
  product is the sum over the contracted coordinate.
-/
import proofs.«168967_j1039382085701_1_alg».proof.Proof.Gen.ReferenceIdeal.Read
import proofs.«168967_j1039382085701_1_alg».proof.Proof.LibLayout3
import proofs.«168967_j1039382085701_1_alg».proof.Proof.Encoding
import Idealize.ShloMosaic.Lib.ValueIdx
import Idealize.ShloMosaic.PureOps.Ideal.Laws
import Idealize.ShloMosaic.PureOps.Reduce

open scoped BigOperators

noncomputable section

namespace Cert.ReferenceIdeal.RefValue

open Cert.ReferenceIdeal Cert.ReferenceIdeal.Gen Cert.ReferenceIdeal.Read Idealize.ShloMosaic Idealize.ShloMosaic.ValueIdx
open Cert.Encoding Cert.LibLayout3

/-- Two indices given coordinate by coordinate are equal when their coordinates are. -/
macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))

variable (x0 : (⟨S32x256x64x64, .f32⟩ : BufTy).Contents (Elt Ideal)) (x1 : (⟨S32x256, .f32⟩ : BufTy).Contents (Elt Ideal))
  (x2 : (⟨S32, .f32⟩ : BufTy).Contents (Elt Ideal))

/-- The reshaped and transposed batch at (image, row, channel) is that image's row. -/
theorem ref_rows (b : Fin 32) (i : Fin 4096) (c : Fin 256) :
    val_main_v1 (F := Ideal) x0 (ix3 b i c) = imageRows x0 b i c := by
  rw [val_main_v1_apply, val_main_v0_apply]
  unfold imageRows
  refine congrArg x0 (funext fun a => Fin.ext ?_)
  have hb := b.isLt
  have hi := i.isLt
  have hc := c.isLt
  match a with
  | ⟨0, _⟩ => show ((b.val * 256 + c.val) * 4096 + i.val) / 1048576 = b.val; omega
  | ⟨1, _⟩ => show ((b.val * 256 + c.val) * 4096 + i.val) / 4096 % 256 = c.val; omega
  | ⟨2, _⟩ => show ((b.val * 256 + c.val) * 4096 + i.val) / 64 % 64 = i.val / 64; omega
  | ⟨3, _⟩ => show ((b.val * 256 + c.val) * 4096 + i.val) % 64 = i.val % 64; omega

/-- The rows' squared norms. -/
theorem ref_xsq (b : Fin 32) (i : Fin 4096) :
    val_main_v3 (F := Ideal) x0 (ix2 b i) = ∑ c : Fin 256, imageRows x0 b i c * imageRows x0 b i c := by
  rw [val_main_v3_apply, val_main_cst_apply]
  show Ideal.ofBits .f32 0x00000000#32 + _ = _
  rw [Ideal.ofBits_zero_f32, zero_add]
  refine Finset.sum_congr rfl fun c _ => ?_
  rw [val_main_v2_apply, show idx_main_v3 (ix2 b i) c = ix3 b i c from by idx3, ref_rows]
  rfl

/-- The codewords' squared norms. -/
theorem ref_csq (j : Fin 32) :
    val_main_v6 (F := Ideal) x1 (ix1 j) = ∑ c : Fin 256, codeRows x1 j c * codeRows x1 j c := by
  rw [val_main_v6_apply, val_main_cst_0_apply]
  show Ideal.ofBits .f32 0x00000000#32 + _ = _
  rw [Ideal.ofBits_zero_f32, zero_add]
  refine Finset.sum_congr rfl fun c _ => ?_
  rw [val_main_v5_apply, show idx_main_v6 (ix1 j) c = ix2 j c from by idx2]
  rfl

/-- The rows-by-codewords products. -/
theorem ref_xc (b : Fin 32) (i : Fin 4096) (j : Fin 32) :
    val_main_v7 (F := Ideal) x0 x1 (ix3 b i j) = ∑ c : Fin 256, imageRows x0 b i c * codeRows x1 j c := by
  rw [val_main_v7_apply]
  refine Finset.sum_congr rfl fun c _ => ?_
  rw [show lidx_main_v7 (ix3 b i j) c = ix3 b i c from by idx3, show ridx_main_v7 (ix3 b i j) c = ix2 j c from by idx2, ref_rows]
  rfl

/-- The logits. -/
theorem ref_logits (b : Fin 32) (i : Fin 4096) (j : Fin 32) :
    val_main_v17 (F := Ideal) x0 x1 x2 (ix3 b i j) = logit two (imageRows x0 b) (codeRows x1) (factors x2) i j := by
  rw [val_main_v17_apply, val_main_v16_apply, val_main_v8_apply, val_main_v15_apply, val_main_v12_apply,
    val_main_v11_apply, val_main_v4_apply, val_main_v10_apply, val_main_v9_apply, val_main_cst_1_apply,
    val_main_v14_apply, val_main_v13_apply,
    show idx_main_v4 (idx_main_v11 (ix3 b i j)) = ix2 b i from by idx2,
    show idx_main_v13 (idx_main_v14 (ix3 b i j)) = ix1 j from by idx1,
    show idx_main_v8 (idx_main_v16 (ix3 b i j)) = ix1 j from by idx1,
    ref_xsq, ref_csq, ref_xc]
  rfl

/-- The [32, 4096, 32] logits reduce along the codeword axis to [32, 4096]. -/
theorem reduces_codes : S32x4096x32.Reduces [2] S32x4096 := by decide

/-- Each row's shift: the maximum of its logits, capped below by −∞. -/
theorem ref_shift (b : Fin 32) (i : Fin 4096) :
    val_main_v20 (F := Ideal) x0 x1 x2 (ix2 b i)
      = rowMax floor (logit two (imageRows x0 b) (codeRows x1) (factors x2) i) := by
  rw [val_main_v20_apply, val_main_v19_apply, val_main_cst_3_apply]
  unfold val_main_v18
  rw [Host.reduce_eq_fold_single FloatOps.maximumf _ _ reducesTo_S32x4096x32_S32x4096_d2 reduces_codes h_S_ (ix2 b i)]
  have hf : (val_main_v17 (F := Ideal) x0 x1 x2 ∘ reduces_codes.lift (ix2 b i))
      = logit two (imageRows x0 b) (codeRows x1) (factors x2) i := by
    funext j
    exact (congrArg (val_main_v17 (F := Ideal) x0 x1 x2) (lift_abc_last reduces_codes b i j)).trans (ref_logits x0 x1 x2 b i j)
  rw [hf]
  rfl

/-- The exponentials of the shifted logits. -/
theorem ref_exp (b : Fin 32) (i : Fin 4096) (j : Fin 32) :
    val_main_v24 (F := Ideal) x0 x1 x2 (ix3 b i j)
      = Ideal.exp (logit two (imageRows x0 b) (codeRows x1) (factors x2) i j
          - rowMax floor (logit two (imageRows x0 b) (codeRows x1) (factors x2) i)) := by
  rw [val_main_v24_apply, val_main_v23_apply, val_main_v22_apply, val_main_v21_apply,
    show idx_main_v21 (idx_main_v22 (ix3 b i j)) = ix2 b i from by idx2, ref_logits, ref_shift]
  rfl

/-- The weights. -/
theorem ref_weight (b : Fin 32) (i : Fin 4096) (j : Fin 32) :
    val_main_v28 (F := Ideal) x0 x1 x2 (ix3 b i j)
      = weight two floor (imageRows x0 b) (codeRows x1) (factors x2) i j := by
  rw [val_main_v28_apply, val_main_v27_apply, val_main_v26_apply, val_main_v25_apply, val_main_cst_4_apply,
    show idx_main_v26 (idx_main_v27 (ix3 b i j)) = ix2 b i from by idx2, ref_exp]
  unfold weight
  show Ideal.div _ (Ideal.ofBits .f32 0x00000000#32 + _) = _
  rw [Ideal.ofBits_zero_f32, zero_add]
  refine congrArg _ (Finset.sum_congr rfl fun j' _ => ?_)
  rw [show idx_main_v25 (ix2 b i) j' = ix3 b i j' from by idx3, ref_exp]

/-- THE REFERENCE'S RESULT AT (b, j, c): the encoding of image b. -/
theorem ref_result (b : Fin 32) (j : Fin 32) (c : Fin 256) :
    val_main_v36 (F := Ideal) x0 x1 x2 (ix3 b j c)
      = aggregate two floor (imageRows x0 b) (codeRows x1) (factors x2) j c := by
  rw [val_main_v36_apply, val_main_v29_apply, val_main_v35_apply, val_main_v33_apply, val_main_v31_apply,
    val_main_v30_apply, val_main_cst_5_apply, val_main_v34_apply, val_main_v32_apply,
    show idx_main_v32 (idx_main_v34 (ix3 b j c)) = ix2 j c from by idx2,
    show idx_main_v31 (idx_main_v33 (ix3 b j c)) = ix2 b j from by idx2]
  unfold aggregate
  show (∑ i : Fin 4096, _) - (Ideal.ofBits .f32 0x00000000#32 + ∑ i : Fin 4096, _) * _ = _
  rw [Ideal.ofBits_zero_f32, zero_add]
  refine congrArg₂ (· - ·) (Finset.sum_congr rfl fun i _ => ?_) (congrArg₂ (· * ·) (Finset.sum_congr rfl fun i _ => ?_) rfl)
  · rw [show lidx_main_v29 (ix3 b j c) i = ix3 b i j from by idx3, show ridx_main_v29 (ix3 b j c) i = ix3 b i c from by idx3,
      ref_weight, ref_rows]
  · rw [show idx_main_v30 (ix2 b j) i = ix3 b i j from by idx3, ref_weight]

/-- The reference's result array is the encoding of the batch. -/
theorem ref_eq : val_main_v36 (F := Ideal) x0 x1 x2 = encoded x0 x1 x2 := by
  funext q
  obtain ⟨b, j, c, rfl⟩ : ∃ (b : Fin 32) (j : Fin 32) (c : Fin 256), q = ix3 b j c := ⟨q 0, q 1, q 2, eq_ix3 q⟩
  rw [ref_result, encoded_apply]

end Cert.ReferenceIdeal.RefValue

end
-- ==== Proof.lean ====
/-
  The encoding layer: a Pallas kernel with one grid point per image against its jnp reference.

  For a batch x of 32 images (256 channels on a 64 × 64 grid), 32 codewords c_j of 256 channels and 32 smoothing
  factors s_j, each image's 4096 pixels are rows x_i; the logit of row i against codeword j is
  s_j · ((‖x_i‖² − 2⟨x_i, c_j⟩) + ‖c_j‖²), a softmax over j (shifted by the row's maximum) gives weights w_ij, and the
  image's encoding is e_j = Σ_i w_ij x_i − (Σ_i w_ij) c_j.

  Over the extended reals the two programs compute this one expression operation for operation: the kernel's two matrix
  products into a zero accumulator and the reference's two dot_generals are the same sums over the contracted
  coordinate, the reductions over one axis the same sums (or the same fold of max) over that axis's coordinates, the
  kernel's roundings to bf16 the identity. So no law of arithmetic is needed, and the finiteness of the inputs is never
  used: the result arrays agree for every input. The kernel's result at image b is block b of its output
  (Proof/KernelTile.lean: the body's value at an index; Proof/KernelArray.lean: the blocks tile the result), the
  reference's array is read stage by stage (Proof/RefRead.lean), and both are the function Encoding.encoded of the
  arguments (Proof/Encoding.lean).

  The three frames are the generated runs; the idealization rewrote no operation, so it preserves the kernel trivially.
-/
import proofs.«168967_j1039382085701_1_alg».proof.Defs
import proofs.«168967_j1039382085701_1_alg».proof.Proof.Gen.Kernel
import proofs.«168967_j1039382085701_1_alg».proof.Proof.Gen.Kernel.Skeleton
import proofs.«168967_j1039382085701_1_alg».proof.Proof.Gen.Kernel.Launch
import proofs.«168967_j1039382085701_1_alg».proof.Proof.Gen.Kernel.Points
import proofs.«168967_j1039382085701_1_alg».proof.Proof.Gen.Kernel.Frame
import proofs.«168967_j1039382085701_1_alg».proof.Proof.Gen.KernelIdeal
import proofs.«168967_j1039382085701_1_alg».proof.Proof.Gen.KernelIdeal.Skeleton
import proofs.«168967_j1039382085701_1_alg».proof.Proof.Gen.KernelIdeal.Launch
import proofs.«168967_j1039382085701_1_alg».proof.Proof.Gen.KernelIdeal.Points
import proofs.«168967_j1039382085701_1_alg».proof.Proof.Gen.KernelIdeal.Frame
import proofs.«168967_j1039382085701_1_alg».proof.Proof.Gen.ReferenceIdeal
import proofs.«168967_j1039382085701_1_alg».proof.Proof.Gen.KernelIdeal.Value
import proofs.«168967_j1039382085701_1_alg».proof.Proof.Gen.ReferenceIdeal.Run
import proofs.«168967_j1039382085701_1_alg».proof.Proof.Gen.ReferenceIdeal.Read
import proofs.«168967_j1039382085701_1_alg».proof.Proof.Gen.Pre_finite_inputs
import proofs.«168967_j1039382085701_1_alg».proof.Proof.Encoding
import proofs.«168967_j1039382085701_1_alg».proof.Proof.KernelArray
import proofs.«168967_j1039382085701_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the kernel's result array ends at the encoding of the batch (its blocks, one
    per image, tile the array) and so does the reference's (its stages read at an index): one function of the arguments. -/
theorem algebraic : Cert.algebraic_KernelIdeal_ReferenceIdeal := by
  intro m ρ m' ρ' _ hagree
  refine ⟨fun c => Cert.Encoding.encoded (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
